-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x12288 : Shape := ⟨2, ![12288, 12288]⟩
abbrev S12288x16 : Shape := ⟨2, ![12288, 16]⟩
abbrev S_ : Shape := ⟨0, ![]⟩

class Facts : Prop where
  bcast_S_S12288x12288 : S_.BroadcastsInDim S12288x12288 (![] : Fin 0 → Fin S12288x12288.rank)
  reducesTo_S12288x12288_S_d0_1 : S12288x12288.ReducesTo [0, 1] S_
  h_S_ : 0 < S_.numel
  bcast_S_S12288x16 : S_.BroadcastsInDim S12288x16 (![] : Fin 0 → Fin S12288x16.rank)
  reducesTo_S12288x16_S_d0_1 : S12288x16.ReducesTo [0, 1] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S12288x12288 .f32) (main_arg1 : FVec F S12288x16 .f32) (main_arg2 : FVec F S12288x16 .f32) (main_arg3 : FVec F S_ .f32) : IVec S_ 1 :=
  let main_v0 : FVec F S12288x12288 .f32 := Host.absf main_arg0
  let main_cst : FVec F S_ .f32 := constant S_ .f32 0x7F800000#32
  let main_v1 : FVec F S12288x12288 .f32 := broadcastInDim S12288x12288 ![] bcast_S_S12288x12288 main_cst
  let main_v2 : IVec S12288x12288 1 := cmpf .olt main_v0 main_v1
  let main_c : IVec S_ 1 := constantI S_ 1 1#1
  let main_v3 : IVec S_ 1 := (fun x v => Host.reduce IntOp.andi x v reducesTo_S12288x12288_S_d0_1 h_S_) main_v2 main_c
  let main_v4 : FVec F S12288x16 .f32 := Host.absf main_arg1
  let main_cst_0 : FVec F S_ .f32 := constant S_ .f32 0x7F800000#32
  let main_v5 : FVec F S12288x16 .f32 := broadcastInDim S12288x16 ![] bcast_S_S12288x16 main_cst_0
  let main_v6 : IVec S12288x16 1 := cmpf .olt main_v4 main_v5
  let main_c_1 : IVec S_ 1 := constantI S_ 1 1#1
  let main_v7 : IVec S_ 1 := (fun x v => Host.reduce IntOp.andi x v reducesTo_S12288x16_S_d0_1 h_S_) main_v6 main_c_1
  let main_v8 : IVec S_ 1 := andi main_v3 main_v7
  let main_v9 : FVec F S12288x16 .f32 := Host.absf main_arg2
  let main_cst_2 : FVec F S_ .f32 := constant S_ .f32 0x7F800000#32
  let main_v10 : FVec F S12288x16 .f32 := broadcastInDim S12288x16 ![] bcast_S_S12288x16 main_cst_2
  let main_v11 : IVec S12288x16 1 := cmpf .olt main_v9 main_v10
  let main_c_3 : IVec S_ 1 := constantI S_ 1 1#1
  let main_v12 : IVec S_ 1 := (fun x v => Host.reduce IntOp.andi x v reducesTo_S12288x16_S_d0_1 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S12288x12288 : Shape := ⟨2, ![12288, 12288]⟩
abbrev S12288x16 : Shape := ⟨2, ![12288, 16]⟩
abbrev S_ : Shape := ⟨0, ![]⟩
abbrev S1x1 : Shape := ⟨2, ![1, 1]⟩
abbrev S256x16 : Shape := ⟨2, ![256, 16]⟩
abbrev S12288x256 : Shape := ⟨2, ![12288, 256]⟩
abbrev S16x256 : Shape := ⟨2, ![16, 256]⟩
abbrev S1x12288x256 : Shape := ⟨3, ![1, 12288, 256]⟩
abbrev S1 : Shape := ⟨1, ![1]⟩
abbrev S1x1x1 : Shape := ⟨3, ![1, 1, 1]⟩

abbrev nBuf : Space → Nat
  | .hbm => 15
  | .vmem => 7
  | .smem => 0
  | _ => 0

abbrev bufTy : (tb : Table) → Fin (tcTables nBuf tb) → BufTy
  | .hbm, ⟨0, _⟩ => ⟨S12288x12288, .f32⟩
  | .hbm, ⟨1, _⟩ => ⟨S12288x16, .f32⟩
  | .hbm, ⟨2, _⟩ => ⟨S12288x16, .f32⟩
  | .hbm, ⟨3, _⟩ => ⟨S_, .f32⟩
  | .hbm, ⟨4, _⟩ => ⟨S1x1, .f32⟩
  | .hbm, ⟨5, _⟩ => ⟨S_, .f32⟩
  | .hbm, ⟨6, _⟩ => ⟨S12288x16, .f32⟩
  | .hbm, ⟨7, _⟩ => ⟨S_, .f32⟩
  | .hbm, ⟨8, _⟩ => ⟨S_, .f32⟩
  | .hbm, ⟨9, _⟩ => ⟨S12288x16, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S12288x16, .f32⟩
  | .local _ .vmem, ⟨1, _⟩ => ⟨S256x16, .f32⟩
  | .local _ .vmem, ⟨2, _⟩ => ⟨S256x16, .f32⟩
  | .local _ .vmem, ⟨3, _⟩ => ⟨S12288x256, .f32⟩
  | .local _ .vmem, ⟨4, _⟩ => ⟨S12288x256, .f32⟩
  | .local _ .vmem, ⟨5, _⟩ => ⟨S1x1, .f32⟩
  | .local _ .vmem, ⟨6, _⟩ => ⟨S1x1, .f32⟩
  | _, _ => ⟨S12288x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c47_i32 : BitVec 32 := 47#32
  let v37 : BitVec 1 := Scalar.cmpi .eq arg0 c47_i32
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S12288x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12288x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S12288x16_S12288x16_0_0 : ∀ a, (![0, 0] : Fin 2 → Nat) a + S12288x16.size a ≤ S12288x16.size a
  h_S12288x16 : 0 < S12288x16.numel
  inb_S256x16_S256x16_0_0 : ∀ a, (![0, 0] : Fin 2 → Nat) a + S256x16.size a ≤ S256x16.size a
  h_S256x16 : 0 < S256x16.numel
  inb_S12288x256_S12288x256_0_0 : ∀ a, (![0, 0] : Fin 2 → Nat) a + S12288x256.size a ≤ S12288x256.size a
  h_S12288x256 : 0 < S12288x256.numel
  transposes_S256x16_p1_0_S16x256 : S256x16.Transposes [1, 0] S16x256
  shapeCasts_S12288x256_S1x12288x256 : S12288x256.ShapeCasts S1x12288x256
  reduces_S1x12288x256_S1 : S1x12288x256.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  reducesTo_S12288x16_S_d0_1 : S12288x16.ReducesTo [0, 1] S_
  h_S_ : 0 < S_.numel
  dot_S12288x16_S16x256_S12288x256_1_0_0_1_n_n_wf : DotDims.WF S12288x16 S16x256 S12288x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S12288x16.size a ≤ S12288x16.size a
  hwx0_0 : ∀ i : grid0.Coords, EltTy.bits .f32 = 32 ∨ (Rect.block (s := S12288x16) S12288x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S12288x16.size a
  hwx0_1 : ∀ i : grid0.Coords, EltTy.bits .f32 = 32 ∨ (Rect.block (s := S12288x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12288x256.size a ≤ S12288x12288.size a
  hwx0_2 : ∀ i : grid0.Coords, EltTy.bits .f32 = 32 ∨ (Rect.block (s := S12288x12288) S12288x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S12288x16_S16x256_S12288x256_1_0_0_1_n_n : DotDims S12288x16 S16x256 S12288x256 where
  lhsContracting := [1]
  rhsContracting := [0]
  lhsNonContracting := [0]
  rhsNonContracting := [1]
  lhsBatch := []
  rhsBatch := []
  wf := dot_S12288x16_S16x256_S12288x256_1_0_0_1_n_n_wf

abbrev win0_0 : Pipeline.Window sig grid0 :=
  Pipeline.Window.ofSpec (Memref.whole main_arg1) S12288x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S12288x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S12288x12288 : Shape := ⟨2, ![12288, 12288]⟩
abbrev S12288x16 : Shape := ⟨2, ![12288, 16]⟩
abbrev S_ : Shape := ⟨0, ![]⟩
abbrev S16x12288 : Shape := ⟨2, ![16, 12288]⟩

abbrev nBuf : Space → Nat
  | .hbm => 35
  | .vmem => 0
  | .smem => 0
  | _ => 0

abbrev bufTy : (tb : Table) → Fin (tcTables nBuf tb) → BufTy
  | .hbm, ⟨0, _⟩ => ⟨S12288x12288, .f32⟩
  | .hbm, ⟨1, _⟩ => ⟨S12288x16, .f32⟩
  | .hbm, ⟨2, _⟩ => ⟨S12288x16, .f32⟩
  | .hbm, ⟨3, _⟩ => ⟨S_, .f32⟩
  | .hbm, ⟨4, _⟩ => ⟨S16x12288, .f32⟩
  | .hbm, ⟨5, _⟩ => ⟨S12288x12288, .f32⟩
  | .hbm, ⟨6, _⟩ => ⟨S12288x12288, .f32⟩
  | .hbm, ⟨7, _⟩ => ⟨S_, .f32⟩
  | .hbm, ⟨8, _⟩ => ⟨S12288x12288, .f32⟩
  | .hbm, ⟨9, _⟩ => ⟨S12288x12288, .f32⟩
  | .hbm, ⟨10, _⟩ => ⟨S12288x12288, .f32⟩
  | .hbm, ⟨11, _⟩ => ⟨S12288x12288, .f32⟩
  | .hbm, ⟨12, _⟩ => ⟨S12288x12288, .i1⟩
  | .hbm, ⟨13, _⟩ => ⟨S12288x12288, .f32⟩
  | .hbm, ⟨14, _⟩ => ⟨S12288x12288, .f32⟩
  | .hbm, ⟨15, _⟩ => ⟨S12288x12288, .f32⟩
  | .hbm, ⟨16, _⟩ => ⟨S12288x12288, .f32⟩
  | .hbm, ⟨17, _⟩ => ⟨S12288x12288, .f32⟩
  | .hbm, ⟨18, _⟩ => ⟨S12288x12288, .f32⟩
  | .hbm, ⟨19, _⟩ => ⟨S12288x12288, .f32⟩
  | .hbm, ⟨20, _⟩ => ⟨S12288x12288, .f32⟩
  | .hbm, ⟨21, _⟩ => ⟨S12288x12288, .f32⟩
  | .hbm, ⟨22, _⟩ => ⟨S12288x12288, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S12288x16, .f32⟩
  | .hbm, ⟨27, _⟩ => ⟨S_, .f32⟩
  | .hbm, ⟨28, _⟩ => ⟨S_, .f32⟩
  | .hbm, ⟨29, _⟩ => ⟨S12288x16, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S12288x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩

abbrev nD : Nat := 1
abbrev τ : Topo := Topo.v7x

variable {F : FTy → Type} [FloatOps F]

class Facts₀ : Prop where
  transposes_S12288x16_S16x12288_1_0 : S12288x16.Transposes [1, 0] S16x12288
  bcast_S_S12288x12288 : S_.BroadcastsInDim S12288x12288 (![] : Fin 0 → Fin S12288x12288.rank)
  reducesTo_S12288x12288_S_d0_1 : S12288x12288.ReducesTo [0, 1] S_
  h_S_ : 0 < S_.numel
  reducesTo_S12288x16_S_d0_1 : S12288x16.ReducesTo [0, 1] S_
  dot_S12288x16_S16x12288_S12288x12288_1_0_0_1_n_n_wf : DotDims.WF S12288x16 S16x12288 S12288x12288 [1] [0] [0] [1] [] []

variable [Facts₀]

def dot_S12288x16_S16x12288_S12288x12288_1_0_0_1_n_n : DotDims S12288x16 S16x12288 S12288x12288 where
  lhsContracting := [1]
  rhsContracting := [0]
  lhsNonContracting := [0]
  rhsNonContracting := [1]
  lhsBatch := []
  rhsBatch := []
  wf := dot_S12288x16_S16x12288_S12288x12288_1_0_0_1_n_n_wf

class Facts : Prop extends Facts₀ where

variable [Facts]
-- ==== Proof.Pieces.lean ====
/-
  What one grid step leaves behind, as values of the step's inputs.

  The kernel keeps a running total in a one-entry scratch cell.  At the first step it clears the cell and then
  adds the step's block sum to it; at every later step it adds the block sum to what the step before left; at the
  last step it also writes the negated total into the one-entry output block.  Here each of these is read off the
  stores the step performs: the cell ends at the body's accumulation term applied to the three loaded blocks and the
  cell's previous contents `acc` (the cleared cell at the first step), and the output block at the last step is the
  body's negation term applied to that.
-/
import proofs.«138033_j74663711473728_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- A middle step: the cell, holding `acc`, ends at the accumulation term of the three blocks and `acc`. -/
theorem cell_middle (c : Dev nD) (i : grid0.Coords) (a1 : Memref sig .tc .vmem S12288x16 .f32) (h1 : a1.IsWhole) (a2 : Memref sig .tc .vmem S256x16 .f32) (h2 : a2.IsWhole) (a3 : Memref sig .tc .vmem S12288x256 .f32) (h3 : a3.IsWhole) (a4 : Memref sig .tc .vmem S1x1 .f32) (h4 : a4.IsWhole) (a5 : Memref sig .tc .vmem S1x1 .f32) (h5 : a5.IsWhole) (hc0 : ¬cond0_0 i) (hc1 : ¬cond0_1 i)
    (x0 : Vec F S12288x16 .f32) (x1 : Vec F S256x16 .f32) (x2 : Vec F S12288x256 .f32) (acc : Vec F S1x1 .f32) :
    sout0_B_0 c i a1 h1 a2 h2 a3 h3 a4 h4 a5 h5 hc0 hc1 x0 x1 x2 acc = k0_pay3 x0 x1 x2 acc := by
  unfold sout0_B_0
  rw [View.read_writes_eq_canon _ _ _ (scover0_B_0 c i a1 h1 a2 h2 a3 h3 a4 h4 a5 h5 hc0 hc1 x0 x1 x2 acc)]
  unfold kernelRun0_B
  dsimp only
  rw [View.canon_unit_zero hz]
  simp only [View.readAt_eq_ld, h1.read_unread, h2.read_unread, h3.read_unread, h5.read_unread, View.ld_unit_zero (S := S12288x16) hz, View.ld_unit_zero (S := S256x16) hz, View.ld_unit_zero (S := S12288x256) hz, View.ld_unit_zero (S := S1x1) hz]

/-- The first step: the cell is cleared, read back, and ends at the accumulation term over the cleared cell. -/
theorem cell_first (c : Dev nD) (i : grid0.Coords) (a1 : Memref sig .tc .vmem S12288x16 .f32) (h1 : a1.IsWhole) (a2 : Memref sig .tc .vmem S256x16 .f32) (h2 : a2.IsWhole) (a3 : Memref sig .tc .vmem S12288x256 .f32) (h3 : a3.IsWhole) (a4 : Memref sig .tc .vmem S1x1 .f32) (h4 : a4.IsWhole) (a5 : Memref sig .tc .vmem S1x1 .f32) (h5 : a5.IsWhole) (hc0 : cond0_0 i) (hc1 : ¬cond0_1 i)
    (x0 : Vec F S12288x16 .f32) (x1 : Vec F S256x16 .f32) (x2 : Vec F S12288x256 .f32) :
    sout0_A_0 c i a1 h1 a2 h2 a3 h3 a4 h4 a5 h5 hc0 hc1 x0 x1 x2 = k0_pay3 x0 x1 x2 (k0_pay2 (F := F)) := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h5.read_unread, View.ld_unit_zero (S := S12288x16) hz, View.ld_unit_zero (S := S256x16) hz, View.ld_unit_zero (S := S12288x256) hz, View.ld_unit_zero (S := S1x1) hz]

/-- The last step: the cell ends as at a middle step … -/
theorem cell_last (c : Dev nD) (i : grid0.Coords) (a1 : Memref sig .tc .vmem S12288x16 .f32) (h1 : a1.IsWhole) (a2 : Memref sig .tc .vmem S256x16 .f32) (h2 : a2.IsWhole) (a3 : Memref sig .tc .vmem S12288x256 .f32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i)
    (x0 : Vec F S12288x16 .f32) (x1 : Vec F S256x16 .f32) (x2 : Vec F S12288x256 .f32) (acc : Vec F S1x1 .f32) :
    sout0_C_0 c i a1 h1 a2 h2 a3 h3 a4 h4 a5 h5 hc0 hc1 x0 x1 x2 acc = k0_pay3 x0 x1 x2 acc := by
  unfold sout0_C_0
  rw [View.read_writes_eq_canon _ _ _ (scover0_C_0 c i a1 h1 a2 h2 a3 h3 a4 h4 a5 h5 hc0 hc1 x0 x1 x2 acc)]
  unfold kernelRun0_C
  dsimp only
  sl_unfold_words
  rw [View.canon_unit_zero hz]
  simp only [View.readAt_eq_ld, h1.read_unread, h2.read_unread, h3.read_unread, h5.read_unread, View.ld_unit_zero (S := S12288x16) hz, View.ld_unit_zero (S := S256x16) hz, View.ld_unit_zero (S := S12288x256) hz, View.ld_unit_zero (S := S1x1) hz]

/-- … and the output block holds the negation term of the cell's final contents. -/
theorem out_last (c : Dev nD) (i : grid0.Coords) (a1 : Memref sig .tc .vmem S12288x16 .f32) (h1 : a1.IsWhole) (a2 : Memref sig .tc .vmem S256x16 .f32) (h2 : a2.IsWhole) (a3 : Memref sig .tc .vmem S12288x256 .f32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i)
    (x0 : Vec F S12288x16 .f32) (x1 : Vec F S256x16 .f32) (x2 : Vec F S12288x256 .f32) (acc : Vec F S1x1 .f32) :
    out0_C_3 c i a1 h1 a2 h2 a3 h3 a4 h4 a5 h5 hc0 hc1 x0 x1 x2 acc = k0_pay1 (k0_pay3 x0 x1 x2 acc) := by
  unfold out0_C_3
  rw [View.read_writes_eq_canon _ _ _ (cover0_C_3 c i a1 h1 a2 h2 a3 h3 a4 h4 a5 h5 hc0 hc1 x0 x1 x2 acc)]
  unfold kernelRun0_C
  dsimp only
  rw [View.canon_unit_zero hz]
  sl_unfold_words
  rw [View.readCov_unit_zero (S := S1x1) _ hz]
  simp only [View.readAt_eq_ld, h1.read_unread, h2.read_unread, h3.read_unread, h5.read_unread, View.ld_unit_zero (S := S12288x16) hz, View.ld_unit_zero (S := S256x16) hz, View.ld_unit_zero (S := S12288x256) hz, View.ld_unit_zero (S := S1x1) hz]

end Cert.KernelIdeal.Pieces
end
-- ==== Proof.LibIdxSums.lean ====
/-
  Sums over an index set written by coordinates, a sum over `Fin (T * n)` written by blocks of `n`, and a running
  total written as a finite sum. General facts over any additive commutative monoid.
-/
import Mathlib.Algebra.BigOperators.Fin
import Mathlib.Logic.Equiv.Fin.Basic
import Idealize.ShloMosaic.Lib.ValueIdx

open scoped BigOperators

namespace Cert.LibIdxSums

open Idealize.ShloMosaic Idealize.ShloMosaic.ValueIdx

variable {M : Type*} [AddCommMonoid M]

/-! ## Sums over rank-3 and rank-4 index sets, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## A sum over `Fin (T * n)` by `T` blocks of `n` -/

/-- Entry `b` of block `t` lies below `T * n`. -/
theorem block_lt {T n : ℕ} (t : Fin T) (b : Fin n) : t.val * n + b.val < T * n := by
  have ht := t.isLt
  have hb := b.isLt
  calc t.val * n + b.val < t.val * n + n := by omega
    _ = (t.val + 1) * n := by ring
    _ ≤ T * n := Nat.mul_le_mul_right n ht

/-- A sum over `Fin (T * n)` is the sum over the `T` blocks of the sums over each block's `n` entries:
    `∑_B h B = ∑_t ∑_b h (t·n + b)`. -/
theorem sum_fin_blocks (T n : ℕ) (h : Fin (T * n) → M) :
    ∑ B : Fin (T * n), h B = ∑ t : Fin T, ∑ b : Fin n, h ⟨t.val * n + b.val, block_lt t b⟩ := by
  rw [← Equiv.sum_comp (finProdFinEquiv (m := T) (n := n)) h, Fintype.sum_prod_type]
  refine Finset.sum_congr rfl fun t _ => Finset.sum_congr rfl fun b _ => ?_
  refine congrArg h (Fin.ext ?_)
  show b.val + n * t.val = t.val * n + b.val
  rw [Nat.mul_comm, Nat.add_comm]

/-- 256 entries as 128 blocks of 2: `∑_B h B = ∑_{t<128} ∑_{b<2} h (2t + b)`. -/
theorem sum_fin256_blocks2 (h : Fin 256 → M) :
    ∑ B, h B = ∑ t : Fin 128, ∑ b : Fin 2, h ⟨2 * t.val + b.val, by omega⟩ := by
  refine (sum_fin_blocks 128 2 h).trans ?_
  refine Finset.sum_congr rfl fun t _ => Finset.sum_congr rfl fun b _ => ?_
  exact congrArg h (Fin.ext (by show t.val * 2 + b.val = 2 * t.val + b.val; omega))

/-- 256 entries as 8 blocks of 32: `∑_B h B = ∑_{t<8} ∑_{b<32} h (32t + b)`. -/
theorem sum_fin256_blocks32 (h : Fin 256 → M) :
    ∑ B, h B = ∑ t : Fin 8, ∑ b : Fin 32, h ⟨32 * t.val + b.val, by omega⟩ := by
  refine (sum_fin_blocks 8 32 h).trans ?_
  refine Finset.sum_congr rfl fun t _ => Finset.sum_congr rfl fun b _ => ?_
  exact congrArg h (Fin.ext (by show t.val * 32 + b.val = 32 * t.val + b.val; omega))

/-! ## A running total is a finite sum -/

/-- A sequence that starts at `z + a 0` and adds `a (n + 1)` at step `n + 1` is `z` plus the partial sums of `a`:
    `A n = z + ∑_{t ≤ n} a t`. -/
theorem chain_eq_sum (A a : ℕ → M) (z : M) (h0 : A 0 = z + a 0) (hs : ∀ n, A (n + 1) = A n + a (n + 1)) :
    ∀ n, A n = z + ∑ t ∈ Finset.range (n + 1), a t := by
  intro n
  induction n with
  | zero => rw [h0, Finset.sum_range_one]
  | succ k ih => rw [hs, ih, Finset.sum_range_succ a (k + 1), add_assoc]

/-- A sum over the naturals below `N` is the sum over `Fin N` of the values. -/
theorem sum_range_eq_sum_fin (N : ℕ) (a : ℕ → M) : ∑ t ∈ Finset.range N, a t = ∑ t : Fin N, a t.val :=
  Finset.sum_range a

end Cert.LibIdxSums
-- ==== Proof.Loss.lean ====
/-
  The loss both programs compute, as one function of the adjacency matrix `A` (12288 × 12288), the two factor
  matrices `U1`, `U2` (12288 × 16) and the weight `lam`, on the extended reals:

      loss = −( Σ_{i,j} A[i,j] · logσ(⟨U1[i], U2[j]⟩) ) + lam · (Σ|U1| + Σ|U2|),

  with logσ(s) = −softplus(−s) and softplus(x) = max(x, 0) + log(1 + exp(−|x|)), |x| = max(x, −x).

  The double sum over (i, j) is also the sum over the 48 column blocks of width 256 of each block's sum: sums on the
  extended reals commute and associate, so no finiteness is needed for the regrouping.
-/
import Mathlib.Algebra.BigOperators.Fin
import Idealize.ShloMosaic.Lib.ValueIdx
import Idealize.ShloMosaic.PureOps.Ideal.Laws
import proofs.«138033_j74663711473728_1_alg».proof.Proof.LibIdxSums

noncomputable section

open scoped BigOperators

namespace Cert.Loss

open Idealize.ShloMosaic Idealize.ShloMosaic.ValueIdx

abbrev SA : Shape := ⟨2, ![12288, 12288]⟩
abbrev SU : Shape := ⟨2, ![12288, 16]⟩

/-- softplus(x) = max(x, 0) + log(1 + exp(−|x|)), the absolute value written max(x, −x). -/
def softplus (x : EReal) : EReal := max x 0 + Ideal.log1p (Ideal.exp (-(max x (-x))))

/-- One entry's contribution: a · logσ(s) = a · (−softplus(−s)). -/
def term (a s : EReal) : EReal := a * -(softplus (-s))

/-- The score of the pair (i, j): the inner product of row i of `U1` and row j of `U2`. -/
def score (U1 U2 : SU.Idx → EReal) (i j : Fin 12288) : EReal := ∑ k : Fin 16, U1 (ix2 i k) * U2 (ix2 j k)

/-- Entry (i, j) of the summand. -/
def entry (A : SA.Idx → EReal) (U1 U2 : SU.Idx → EReal) (i j : Fin 12288) : EReal :=
  term (A (ix2 i j)) (score U1 U2 i j)

/-- The sum over all pairs. -/
def total (A : SA.Idx → EReal) (U1 U2 : SU.Idx → EReal) : EReal := ∑ i : Fin 12288, ∑ j : Fin 12288, entry A U1 U2 i j

/-- Column `b` of column block `t`. -/
def col (t : Fin 48) (b : Fin 256) : Fin 12288 := ⟨t.val * 256 + b.val, by have := t.isLt; have := b.isLt; omega⟩

/-- The sum over the pairs whose column lies in block `t`. -/
def blockSum (A : SA.Idx → EReal) (U1 U2 : SU.Idx → EReal) (t : Fin 48) : EReal :=
  ∑ i : Fin 12288, ∑ b : Fin 256, entry A U1 U2 i (col t b)

/-- A sum over the 12288 columns is the sum over the 48 blocks of the sums over each block's 256 columns. -/
theorem sum_cols {M : Type*} [AddCommMonoid M] (h : Fin 12288 → M) :
    ∑ j, h j = ∑ t : Fin 48, ∑ b : Fin 256, h (col t b) := by
  have e : 48 * 256 = 12288 := by norm_num
  rw [← Equiv.sum_comp (finCongr e) h, Cert.LibIdxSums.sum_fin_blocks 48 256 (fun B => h (finCongr e B))]
  exact Finset.sum_congr rfl fun t _ => Finset.sum_congr rfl fun b _ => congrArg h (Fin.ext rfl)

/-- The sum over all pairs is the sum over the column blocks of the blocks' sums. -/
theorem total_eq_blocks (A : SA.Idx → EReal) (U1 U2 : SU.Idx → EReal) :
    total A U1 U2 = ∑ t : Fin 48, blockSum A U1 U2 t := by
  unfold total blockSum
  refine Eq.trans (Finset.sum_congr rfl fun i _ => sum_cols (fun j => entry A U1 U2 i j)) ?_
  exact Finset.sum_comm

/-- A running total that starts from zero, adds block 0 and then one block per step, is after step `n` the sum of
    the blocks up to `n`. -/
theorem running (a : ℕ → EReal) (R : ℕ → EReal) (h0 : R 0 = 0 + a 0) (hs : ∀ n, R (n + 1) = R n + a (n + 1)) (n : ℕ) :
    R n = ∑ t ∈ Finset.range (n + 1), a t := by
  rw [Cert.LibIdxSums.chain_eq_sum R a 0 h0 hs n, zero_add]

/-- A comparison "x ≠ x" selects its second alternative: no extended real differs from itself. -/
theorem select_ne_self (p : CmpFPredicate) (hp : p = .one ∨ p = .une) (x y z : EReal) :
    Scalar.select (Ideal.cmp p x x) y z = z := by
  rcases hp with rfl | rfl <;> simp [Scalar.select, Ideal.cmp]

/-- The kernel's spelling of one entry — negations written as subtractions from zero, the self-comparison guard in
    place — is `term`. -/
theorem term_of_subs (a s : EReal) :
    a * (0 - Scalar.select (Ideal.cmp .one (0 - s - 0) (0 - s - 0)) (0 - s + 0)
      (max (0 - s) 0 + Ideal.log1p (Ideal.exp (0 - max (0 - s - 0) (-(0 - s - 0)))))) = term a s := by
  rw [select_ne_self _ (Or.inl rfl)]
  simp only [zero_sub, sub_zero]
  rfl

/-- The reference's spelling of one entry is `term`. -/
theorem term_of_negs (a s : EReal) :
    a * -(Scalar.select (Ideal.cmp .une (-s - 0) (-s - 0)) (-s + 0)
      (max (-s) 0 + Ideal.log1p (Ideal.exp (-(max (-s - 0) (-(-s - 0))))))) = term a s := by
  rw [select_ne_self _ (Or.inr rfl)]
  simp only [sub_zero]
  rfl

end Cert.Loss

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.Payload.lean ====
/-
  The body's arithmetic at the exact instance.

  One grid step takes the whole of `U1` (12288 × 16), a block of 256 rows of `U2` (256 × 16) and the matching block of
  256 columns of `A` (12288 × 256), forms the 12288 × 256 block of scores `U1 · blockᵀ`, applies the log-sigmoid entry by
  entry, multiplies by `A`'s block, sums the 12288 · 256 entries and adds the sum to the running total.  Read at the
  exact instance this is: the previous total plus the double sum over the block's rows and columns of
  `term (A-entry) (score)`, the score of an entry the inner product of a row of `U1` and a row of the `U2` block.
  The cleared cell holds zero and the last step's output is the negated total.
-/
import proofs.«138033_j74663711473728_1_alg».proof.Proof.Gen.KernelIdeal.Skeleton
import proofs.«138033_j74663711473728_1_alg».proof.Proof.Loss
import proofs.«138033_j74663711473728_1_alg».proof.Proof.LibPlainDot
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem

open scoped BigOperators
namespace Cert.KernelIdeal.Payload
open Cert.KernelIdeal Cert.KernelIdeal.Gen Idealize.ShloMosaic.ValueIdx

/-- The body's matrix product has plain dimension numbers: rows by columns. -/
theorem plain : dot_S12288x16_S16x256_S12288x256_1_0_0_1_n_n = DotDims.plain 12288 16 256 := rfl

/-- The block of scores at row `i`, column `b`: the inner product of row `i` of `x0` and row `b` of `x1`. -/
theorem scores_apply (x0 : FVec Ideal S12288x16 .f32) (x1 : FVec Ideal S256x16 .f32) (i : Fin 12288) (b : Fin 256) :
    matmul (F := Ideal) dot_S12288x16_S16x256_S12288x256_1_0_0_1_n_n none x0
        (transpose S16x256 [1, 0] x1 transposes_S256x16_p1_0_S16x256) (constant (F := Ideal) S12288x256 .f32 0x00000000#32) (ix2 i b)
      = ∑ k : Fin 16, x0 (ix2 i k) * x1 (ix2 b k) := by
  refine (congrFun (Cert.Lib.PlainDot.matmul_zero_eq _ plain none x0 _) (ix2 i b)).trans ?_
  rw [Cert.Lib.PlainDot.rowsByCols_apply]
  refine Finset.sum_congr rfl fun k _ => ?_
  rw [transpose_ix2_apply]

/-- The sum of all entries of a 12288 × 256 array, as the body takes it (recast with a leading unit axis, reduced
    over both long axes, the one entry of the result extracted), is the double sum over rows and columns. -/
theorem block_total (W : FVec Ideal S12288x256 .f32) (hφ : FKind.Formats .f32) (hacc : (0x00000000#32 : BitVec 32) = FKind.add.neutral .f32 hφ) :
    extractAt ![0, 0, 0] (shapeCast S1x1x1 (multiReduction .add [1, 2] S1 (shapeCast S1x12288x256 W shapeCasts_S12288x256_S1x12288x256)
        0x00000000#32 reduces_S1x12288x256_S1 hφ hacc) shapeCasts_S1_S1x1x1) inpos_S1x1x1_p0_0_0
      = ∑ i : Fin 12288, ∑ b : Fin 256, W (ix2 i b) := by
  unfold extractAt
  unfold shapeCast
  refine (Ideal.multiReduction_add_total _ _ _ (fun b => match b with | ⟨0, _⟩ => rfl) _ _ _).trans ?_
  refine (Equiv.sum_comp (Shape.reshapeEquiv shapeCasts_S12288x256_S1x12288x256) W).trans ?_
  exact sum_idx2 W

/-- One entry of the block's summand array: the kernel's spelling of `a · logσ(s)`, at the entry. -/
theorem entry_apply (x2 s : FVec Ideal S12288x256 .f32) (j : S12288x256.Idx) :
    (mulf x2 (subf (broadcast S12288x256 (Scalar.ofBits (F := Ideal) .f32 0x00000000#32)) (select (cmpf .one (subf (subf (broadcast S12288x256 (Scalar.ofBits (F := Ideal) .f32 0x00000000#32)) s) (broadcast S12288x256 (Scalar.ofBits (F := Ideal) .f32 0x00000000#32))) (subf (subf (broadcast S12288x256 (Scalar.ofBits (F := Ideal) .f32 0x00000000#32)) s) (broadcast S12288x256 (Scalar.ofBits (F := Ideal) .f32 0x00000000#32))))
        (addf (subf (broadcast S12288x256 (Scalar.ofBits (F := Ideal) .f32 0x00000000#32)) s) (broadcast S12288x256 (Scalar.ofBits (F := Ideal) .f32 0x00000000#32)))
        (addf (maximumf (subf (broadcast S12288x256 (Scalar.ofBits (F := Ideal) .f32 0x00000000#32)) s) (broadcast S12288x256 (Scalar.ofBits (F := Ideal) .f32 0x00000000#32))) (log1p (exp (subf (broadcast S12288x256 (Scalar.ofBits (F := Ideal) .f32 0x00000000#32)) (absf (subf (subf (broadcast S12288x256 (Scalar.ofBits (F := Ideal) .f32 0x00000000#32)) s) (broadcast S12288x256 (Scalar.ofBits (F := Ideal) .f32 0x00000000#32)))))))))) ) j = Cert.Loss.term (x2 j) (s j) := by
  simp only [mulf, subf, addf, maximumf, absf, exp, log1p, select, cmpf, broadcast, Ideal.mulf_def, Ideal.subf_def, Ideal.addf_def,
    Ideal.maximumf_def, Ideal.exp_def, Ideal.log1p_def, Ideal.cmpf_def, Ideal.absf_def]
  have hz : (FloatOps.ofBits (F := Ideal) .f32 0x00000000#32 : EReal) = 0 := Ideal.ofBits_zero_f32
  simp only [Scalar.ofBits, hz, Ideal.ofBits_zero_f32]
  exact Cert.Loss.term_of_subs (x2 j) (s j)

/-- The cleared cell holds zero. -/
theorem cleared (y : S1x1.Idx) : k0_pay2 (F := Ideal) y = 0 := by
  unfold k0_pay2
  rw [shapeCast_self]
  exact Ideal.ofBits_zero_f32

/-- The last step's output entry is the negated cell. -/
theorem negated (v : Vec Ideal S1x1 .f32) (y : S1x1.Idx) : k0_pay1 v y = -(v y) := by
  unfold k0_pay1
  show Ideal.ofBits .f32 0x00000000#32 - v y = -(v y)
  rw [Ideal.ofBits_zero_f32, zero_sub]

/-- Adding one number to the one-entry cell. -/
theorem cell_add (acc : FVec Ideal S1x1 .f32) (v : Ideal .f32) (y : S1x1.Idx) :
    shapeCast S1x1 (addf acc (broadcast S1x1 v)) shapeCasts_S1x1_S1x1 y = acc y + v := by
  rw [shapeCast_self]
  rfl

/-- One step's accumulation: the previous total plus the block's double sum of `term (A-entry) (score)`. -/
theorem accumulate_apply (x0 : Vec Ideal S12288x16 .f32) (x1 : Vec Ideal S256x16 .f32) (x2 : Vec Ideal S12288x256 .f32)
    (acc : Vec Ideal S1x1 .f32) (y : S1x1.Idx) :
    k0_pay3 x0 x1 x2 acc y = acc y + ∑ i : Fin 12288, ∑ b : Fin 256,
      Cert.Loss.term (x2 (ix2 i b)) (∑ k : Fin 16, x0 (ix2 i k) * x1 (ix2 b k)) := by
  unfold k0_pay3
  dsimp only
  refine (cell_add acc _ y).trans ?_
  refine congrArg (acc y + ·) ?_
  refine (block_total _ _ _).trans ?_
  refine Finset.sum_congr rfl fun i _ => Finset.sum_congr rfl fun b _ => ?_
  refine (entry_apply x2 _ (ix2 i b)).trans ?_
  exact congrArg (Cert.Loss.term (x2 (ix2 i b))) (scores_apply x0 x1 i b)

end Cert.KernelIdeal.Payload
end
-- ==== Proof.Blocks.lean ====
/-
  What each input window shows the body at a grid step.

  The first window is the whole of `U1` at every step.  The second is the block of 256 rows of `U2` numbered by the
  step, the third the block of 256 columns of `A` numbered by the step: row `b` of the `U2` block at step `t` is row
  `256·t + b` of `U2`, and column `b` of the `A` block is column `256·t + b` of `A`.
-/
import proofs.«138033_j74663711473728_1_alg».proof.Proof.Gen.KernelIdeal.Frame.Runs
import proofs.«138033_j74663711473728_1_alg».proof.Proof.Loss
import Idealize.ShloMosaic.Lib.Pipeline.Value
import Idealize.ShloMosaic.Lib.ValueIdx

noncomputable section

open Idealize.ShloMosaic Idealize.ShloMosaic.TcCoe Idealize.SL.Sem

namespace Cert.KernelIdeal.Blocks
open Cert.KernelIdeal Cert.KernelIdeal.Gen Idealize.ShloMosaic.ValueIdx

variable {F : FTy → Type} [FloatOps F]
variable (m : (ℓ : Loc nD τ sig) → Buf (Elt F) ℓ)

/-- The step as a block number below 48. -/
def blockOf (t : Fin cfg0.N) : Fin 48 := ⟨t.val, lt_of_lt_of_eq t.isLt N_0⟩

/-- The windows' block indices at step `t`: (0, 0) for `U1`, (t, 0) for `U2`, (0, t) for `A`. -/
theorem index_facts : ∀ t : Fin cfg0.N,
    (win0_0.index t 0 = 0 ∧ win0_0.index t 1 = 0) ∧ (win0_1.index t 0 = t.val ∧ win0_1.index t 1 = 0)
      ∧ (win0_2.index t 0 = 0 ∧ win0_2.index t 1 = t.val) :=
  (by decide +kernel : ∀ t : Fin grid0.N, (win0_0.index t 0 = 0 ∧ win0_0.index t 1 = 0) ∧ (win0_1.index t 0 = t.val ∧ win0_1.index t 1 = 0)
      ∧ (win0_2.index t 0 = 0 ∧ win0_2.index t 1 = t.val))

/-- The `U1` window at any step is `U1`. -/
theorem u1_apply (c : Dev nD) (t : Fin cfg0.N) (i : Fin 12288) (k : Fin 16) :
    (iblk m c 0 t : Vec F S12288x16 .f32) (ix2 i k) = m ((c : Thread nD τ).loc main_arg1) (ix2 i k) := by
  unfold iblk
  rw [View.read_apply]
  show V m c main_arg1 (((cfg0.win 0).blk t).view.emb (ix2 i k)) = _
  refine congrArg (m ((c : Thread nD τ).loc main_arg1)) (funext fun a => Fin.ext ?_)
  match a with
  | ⟨0, _⟩ => show win0_0.index t 0 * 12288 + 1 * i.val = i.val; rw [(index_facts t).1.1]; omega
  | ⟨1, _⟩ => show win0_0.index t 1 * 16 + 1 * k.val = k.val; rw [(index_facts t).1.2]; omega

/-- Row `b` of the `U2` window at step `t` is row `256·t + b` of `U2`. -/
theorem u2_apply (c : Dev nD) (t : Fin cfg0.N) (b : Fin 256) (k : Fin 16) :
    (iblk m c 1 t : Vec F S256x16 .f32) (ix2 b k) = m ((c : Thread nD τ).loc main_arg2) (ix2 (Cert.Loss.col (blockOf t) b) k) := by
  unfold iblk
  rw [View.read_apply]
  show V m c main_arg2 (((cfg0.win 1).blk t).view.emb (ix2 b k)) = _
  refine congrArg (m ((c : Thread nD τ).loc main_arg2)) (funext fun a => Fin.ext ?_)
  match a with
  | ⟨0, _⟩ => show win0_1.index t 0 * 256 + 1 * b.val = t.val * 256 + b.val; rw [(index_facts t).2.1.1]; omega
  | ⟨1, _⟩ => show win0_1.index t 1 * 16 + 1 * k.val = k.val; rw [(index_facts t).2.1.2]; omega

/-- Column `b` of the `A` window at step `t` is column `256·t + b` of `A`. -/
theorem a_apply (c : Dev nD) (t : Fin cfg0.N) (i : Fin 12288) (b : Fin 256) :
    (iblk m c 2 t : Vec F S12288x256 .f32) (ix2 i b) = m ((c : Thread nD τ).loc main_arg0) (ix2 i (Cert.Loss.col (blockOf t) b)) := by
  unfold iblk
  rw [View.read_apply]
  show V m c main_arg0 (((cfg0.win 2).blk t).view.emb (ix2 i b)) = _
  refine congrArg (m ((c : Thread nD τ).loc main_arg0)) (funext fun a => Fin.ext ?_)
  match a with
  | ⟨0, _⟩ => show win0_2.index t 0 * 12288 + 1 * i.val = i.val; rw [(index_facts t).2.2.1]; omega
  | ⟨1, _⟩ => show win0_2.index t 1 * 256 + 1 * b.val = t.val * 256 + b.val; rw [(index_facts t).2.2.2]; omega

end Cert.KernelIdeal.Blocks
end
-- ==== Proof.Accumulate.lean ====
/-
  The running total, step by step.

  After step `n` the scratch cell holds the sum of the block sums of the column blocks `0 … n`: the first step clears
  the cell and adds block 0, every later step adds its own block to what the step before left (induction on the step,
  the three kinds of step — first, middle, last — read off the stores each performs).  After the last step the output
  block holds the negated total, which is minus the sum over all pairs.
-/
import proofs.«138033_j74663711473728_1_alg».proof.Proof.Gen.KernelIdeal.Frame
import proofs.«138033_j74663711473728_1_alg».proof.Proof.Pieces
import proofs.«138033_j74663711473728_1_alg».proof.Proof.Payload
import proofs.«138033_j74663711473728_1_alg».proof.Proof.Blocks
import proofs.«138033_j74663711473728_1_alg».proof.Proof.Loss

noncomputable section

open Idealize.ShloMosaic Idealize.ShloMosaic.TcCoe Idealize.SL.Sem

open scoped BigOperators
namespace Cert.KernelIdeal.Accumulate
open Cert.KernelIdeal Cert.KernelIdeal.Gen Idealize.ShloMosaic.ValueIdx Cert.KernelIdeal.Blocks

variable (m : (ℓ : Loc nD τ sig) → Buf (Elt Ideal) ℓ)

/-- The three arrays as the region finds them. -/
abbrev argA (c : Dev nD) : Cert.Loss.SA.Idx → EReal := m ((c : Thread nD τ).loc main_arg0)
abbrev argU1 (c : Dev nD) : Cert.Loss.SU.Idx → EReal := m ((c : Thread nD τ).loc main_arg1)
abbrev argU2 (c : Dev nD) : Cert.Loss.SU.Idx → EReal := m ((c : Thread nD τ).loc main_arg2)

/-- The block sum of column block `n` (zero past the last block). -/
def bs (c : Dev nD) (n : ℕ) : EReal :=
  if h : n < 48 then Cert.Loss.blockSum (argA m c) (argU1 m c) (argU2 m c) ⟨n, h⟩ else 0

theorem bs_of (c : Dev nD) (t : Fin cfg0.N) :
    bs m c t.val = Cert.Loss.blockSum (argA m c) (argU1 m c) (argU2 m c) (blockOf t) :=
  dif_pos (lt_of_lt_of_eq t.isLt N_0)

/-- One step on the windows' blocks: the cell's previous contents plus the step's block sum. -/
theorem step (c : Dev nD) (t : Fin cfg0.N) (acc : Vec Ideal S1x1 .f32) (y : S1x1.Idx) :
    k0_pay3 (iblk m c 0 t) (iblk m c 1 t) (iblk m c 2 t) acc y = acc y + bs m c t.val := by
  refine (Cert.KernelIdeal.Payload.accumulate_apply (iblk m c 0 t) (iblk m c 1 t) (iblk m c 2 t) acc y).trans ?_
  rw [bs_of]
  refine congrArg (acc y + ·) ?_
  unfold Cert.Loss.blockSum Cert.Loss.entry Cert.Loss.score
  refine Finset.sum_congr rfl fun i _ => Finset.sum_congr rfl fun b _ => ?_
  exact congrArg₂ Cert.Loss.term (a_apply m c t i b)
    (Finset.sum_congr rfl fun k _ => congrArg₂ (· * ·) (u1_apply m c t i k) (u2_apply m c t b k))

/-- After step `n` the cell holds the sum of the block sums up to `n`. -/
theorem cell_eq (c : Dev nD) : ∀ (n : ℕ) (hn : n < cfg0.N) (y : S1x1.Idx),
    (outsAt0 m c n hn).2 y = ∑ t ∈ Finset.range (n + 1), bs m c t
  | 0, hn, y => by
    have h1 : ¬(⟨0, hn⟩ : Fin cfg0.N).val % 48 = 47 := by show ¬(0 % 48 = 47); decide
    rw [show (outsAt0 m c 0 hn).2 = _ from congrArg Prod.snd (outsAt0_A m c ⟨0, hn⟩ rfl h1)]
    dsimp only
    rw [Cert.KernelIdeal.Pieces.cell_first]
    refine (step m c ⟨0, hn⟩ _ y).trans ?_
    rw [Cert.KernelIdeal.Payload.cleared, zero_add, Finset.sum_range_one]
  | n + 1, hn, y => by
    have hN : n + 1 < 48 := lt_of_lt_of_eq hn N_0
    have h0 : ¬(⟨n + 1, hn⟩ : Fin cfg0.N).val % 48 = 0 := by dsimp only; omega
    have ih := cell_eq c n (Nat.lt_of_succ_lt hn) y
    rw [Finset.sum_range_succ, ← ih]
    by_cases h1 : (⟨n + 1, hn⟩ : Fin cfg0.N).val % 48 = 47
    · rw [show (outsAt0 m c (n + 1) hn).2 = _ from congrArg Prod.snd (outsAt0_C m c ⟨n + 1, hn⟩ h0 h1)]
      dsimp only
      rw [Cert.KernelIdeal.Pieces.cell_last]
      exact step m c ⟨n + 1, hn⟩ _ y
    · rw [show (outsAt0 m c (n + 1) hn).2 = _ from congrArg Prod.snd (outsAt0_B m c ⟨n + 1, hn⟩ h0 h1)]
      dsimp only
      rw [Cert.KernelIdeal.Pieces.cell_middle]
      exact step m c ⟨n + 1, hn⟩ _ y

/-- The sum of all 48 block sums is the sum over all pairs. -/
theorem all_blocks (c : Dev nD) :
    ∑ t ∈ Finset.range 48, bs m c t = Cert.Loss.total (argA m c) (argU1 m c) (argU2 m c) := by
  rw [Cert.Loss.total_eq_blocks, Finset.sum_range]
  exact Finset.sum_congr rfl fun t _ => dif_pos t.isLt

/-- At the last step the output block holds minus the sum over all pairs. -/
theorem out_eq (c : Dev nD) (hn : 47 < cfg0.N) (y : S1x1.Idx) :
    (outsAt0 m c 47 hn).1 y = -(Cert.Loss.total (argA m c) (argU1 m c) (argU2 m c)) := by
  have h0 : ¬(⟨47, hn⟩ : Fin cfg0.N).val % 48 = 0 := by show ¬(47 % 48 = 0); decide
  have h1 : (⟨47, hn⟩ : Fin cfg0.N).val % 48 = 47 := by show 47 % 48 = 47; decide
  rw [show (outsAt0 m c 47 hn).1 = _ from congrArg Prod.fst (outsAt0_C m c ⟨47, hn⟩ h0 h1)]
  dsimp only
  rw [Cert.KernelIdeal.Pieces.out_last, Cert.KernelIdeal.Payload.negated]
  refine congrArg (fun z : EReal => -z) ?_
  refine (step m c ⟨47, hn⟩ _ y).trans ?_
  rw [← all_blocks, Finset.sum_range_succ]
  exact congrArg (· + bs m c 47) (cell_eq m c 46 _ y)

end Cert.KernelIdeal.Accumulate
end
-- ==== Proof.Penalty.lean ====
/-
  The regularisation term both programs add to the negated sum: `lam · (Σ|U1| + Σ|U2|)`, each sum a host reduction of
  the absolute values over both axes from zero.  Both programs compute it by the same host operations on the same
  arguments, so it is carried as one function and never opened.
-/
import Idealize.ShloMosaic.PureOps
import Idealize.ShloMosaic.PureOps.Ideal.Laws

noncomputable section

namespace Cert.Loss

open Idealize.ShloMosaic

/-- `lam · (Σ|U1| + Σ|U2|)` as the host computes it, at any float instance. -/
def penalty {F : FTy → Type} [FloatOps F] (h : (⟨2, ![12288, 16]⟩ : Shape).ReducesTo [0, 1] ⟨0, ![]⟩) (hpos : 0 < (⟨0, ![]⟩ : Shape).numel)
    (U1 U2 : FVec F ⟨2, ![12288, 16]⟩ .f32) (lam : FVec F ⟨0, ![]⟩ .f32) : FVec F ⟨0, ![]⟩ .f32 :=
  mulf lam (addf (Host.reduceAdd (Host.absf U1) (constant ⟨0, ![]⟩ .f32 0x00000000#32) h hpos)
    (Host.reduceAdd (Host.absf U2) (constant ⟨0, ![]⟩ .f32 0x00000000#32) h hpos))

end Cert.Loss

end
-- ==== Proof.KernelValue.lean ====
/-
  The kernel program's result.

  The output block is written back once, after the last step, and is the whole one-entry output array: the array ends
  holding minus the sum over all pairs.  The host operations after the region reshape that entry to a scalar and add
  the regularisation term of the unchanged arguments.
-/
import proofs.«138033_j74663711473728_1_alg».proof.Proof.Gen.KernelIdeal.Frame
import proofs.«138033_j74663711473728_1_alg».proof.Proof.Accumulate
import proofs.«138033_j74663711473728_1_alg».proof.Proof.Penalty
import Idealize.ShloMosaic.Lib.Pipeline.Value
import Idealize.ShloMosaic.Lib.StableHlo.Run

noncomputable section

open Idealize.ShloMosaic Idealize.ShloMosaic.TcCoe Idealize.SL.Sem

open scoped BigOperators
namespace Cert.KernelIdeal.KernelValue
open Cert.KernelIdeal Cert.KernelIdeal.Gen Idealize.ShloMosaic.ValueIdx Cert.KernelIdeal.Accumulate
open Idealize.ShloMosaic.Pipeline (Dat)

variable (m : (ℓ : Loc nD τ sig) → Buf (Elt Ideal) ℓ) (ρ : Dev nD → PrngReg)

/-- The last step. -/
abbrev lastStep : Fin cfg0.N := ⟨47, by rw [show cfg0.N = 48 from N_0]; decide⟩

/-- The output array's final contents: its one entry is minus the sum over all pairs. -/
def negTotal (c : Dev nD) : Buf (Elt Ideal) ((c : Thread nD τ).loc main_v0) :=
  fun _ => -(Cert.Loss.total (argA m c) (argU1 m c) (argU2 m c))

/-- The one write-back, after the last step, writes the negated total. -/
theorem flushed_eq (c : Dev nD) (t : Fin cfg0.N) (hf : (cfg0.win 3).flush t = true) :
    (dats m 0 c).flushed 3 t = ((cfg0.win 3).blk t).view.read (Elt Ideal) (negTotal m c) := by
  have hN : cfg0.N = 48 := N_0
  have h47 : t.val = 47 := by have := (flush0_3 t).mp hf; have := t.isLt; omega
  obtain rfl : t = lastStep := Fin.ext h47
  funext x
  show (dats m 0 c).after 3 lastStep ((cfg0.win 3).xinj (grid0.coords lastStep) x) = _
  rw [after0_3]
  exact out_eq m c _ _

/-- So the output array ends holding the negated total: the last step's block is the whole array. -/
theorem final_out (c : Dev nD) : (dats m 0 c).arrAt 3 cfg0.N = negTotal m c :=
  (dats m 0 c).arrAt_eq_of_cover 3 (negTotal m c) (flushed_eq m c) fun i =>
    ⟨lastStep, (flush0_3 lastStep).mpr rfl, by
      show i ∈ ((View.whole main_v0).slice (win0_3.rect lastStep)).set
      rw [View.set_slice_whole, Rect.mem_set_unit]
      intro a
      have h0 : (i 0 : Nat) < 1 := (i 0).isLt
      have h1 : (i 1 : Nat) < 1 := (i 1).isLt
      match a with
      | ⟨0, _⟩ => show win0_3.index lastStep 0 * win0_3.size 0 ≤ (i 0 : Nat) ∧ (i 0 : Nat) < win0_3.index lastStep 0 * win0_3.size 0 + win0_3.xsize (grid0.coords lastStep) 0
                  rw [show win0_3.index lastStep 0 * win0_3.size 0 = 0 from by decide +kernel, show win0_3.xsize (grid0.coords lastStep) 0 = 1 from by decide +kernel]; omega
      | ⟨1, _⟩ => show win0_3.index lastStep 1 * win0_3.size 1 ≤ (i 1 : Nat) ∧ (i 1 : Nat) < win0_3.index lastStep 1 * win0_3.size 1 + win0_3.xsize (grid0.coords lastStep) 1
                  rw [show win0_3.index lastStep 1 * win0_3.size 1 = 0 from by decide +kernel, show win0_3.xsize (grid0.coords lastStep) 1 = 1 from by decide +kernel]; omega⟩

/-- The program's result as a function of the launch memory: the negated total, reshaped to a scalar, plus the
    regularisation term. -/
def kernelLoss (c : Dev nD) : Buf (Elt Ideal) ((c : Thread nD τ).loc main_v8) :=
  addf (F := Ideal) (shapeCast S_ (negTotal m c) shapeCasts_S1x1_S_)
    (Cert.Loss.penalty (F := Ideal) reducesTo_S12288x16_S_d0_1 h_S_ (m ((c : Thread nD τ).loc main_arg1)) (m ((c : Thread nD τ).loc main_arg2))
      (m ((c : Thread nD τ).loc main_arg3)))

/-- The lines after the region, run on the arrays as the region leaves them: the output array at the negated total,
    the arguments as launched. -/
theorem tail_eq (c : Dev nD) :
    Pipeline.afterTail₀ cfgs (dats m) 0 (V0 m) [hostOps1] c main_v8 = kernelLoss m c := by
  unfold Pipeline.afterTail₀
  show StableHlo.after hostOps1 _ (Proc.devRef .tc main_v8) = _
  after_results
  have e3 : Pipeline.withArrays (cfgs 0).spec c (V0 m c) (fun w => (dats m 0 c).arrAt w (cfgs 0).N) (Proc.devRef .tc main_v0) = negTotal m c :=
    (Pipeline.withArrays_arr (cfgs 0).spec launch0.win.arr_inj c (V0 m c) _ 3).trans (final_out m c)
  have e1 : Pipeline.withArrays (cfgs 0).spec c (V0 m c) (fun w => (dats m 0 c).arrAt w (cfgs 0).N) (Proc.devRef .tc main_arg1) = m ((c : Thread nD τ).loc main_arg1) :=
    (Pipeline.withArrays_arr (cfgs 0).spec launch0.win.arr_inj c (V0 m c) _ 0).trans
      (((dats m 0 c).arrAt_in 0 rfl _).trans ((A_eq m c 0).trans (V_main_arg1 m c)))
  have e2 : Pipeline.withArrays (cfgs 0).spec c (V0 m c) (fun w => (dats m 0 c).arrAt w (cfgs 0).N) (Proc.devRef .tc main_arg2) = m ((c : Thread nD τ).loc main_arg2) :=
    (Pipeline.withArrays_arr (cfgs 0).spec launch0.win.arr_inj c (V0 m c) _ 1).trans
      (((dats m 0 c).arrAt_in 1 rfl _).trans ((A_eq m c 1).trans (V_main_arg2 m c)))
  have e0 : Pipeline.withArrays (cfgs 0).spec c (V0 m c) (fun w => (dats m 0 c).arrAt w (cfgs 0).N) (Proc.devRef .tc main_arg3) = m ((c : Thread nD τ).loc main_arg3) :=
    (Pipeline.withArrays_of_ne (cfgs 0).spec c (V0 m c) _ main_arg3 (by decide)).trans (V_main_arg3 m c)
  rw [e3, e1, e2, e0]
  rfl

/-- The result at its one index: minus the sum over all pairs plus the regularisation term. -/
theorem kernelLoss_apply (c : Dev nD) (j : S_.Idx) :
    kernelLoss m c j = -(Cert.Loss.total (argA m c) (argU1 m c) (argU2 m c))
      + Cert.Loss.penalty (F := Ideal) reducesTo_S12288x16_S_d0_1 h_S_ (m ((c : Thread nD τ).loc main_arg1)) (m ((c : Thread nD τ).loc main_arg2))
          (m ((c : Thread nD τ).loc main_arg3)) j := rfl

/-- Every execution of the kernel program terminates with its result at `kernelLoss` and the arguments unchanged. -/
theorem run : θ_run defs (onTc (τ := τ) (main (F := Ideal))) ⟨m, fun _ => 0, ρ⟩ fun r => ∀ c : Dev nD,
      r.2.mem ((c.tc : Thread nD τ).loc main_v8) = kernelLoss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.KernelValue
end
-- ==== Proof.RefRun.lean ====
/-
  The reference program's run, read back.

  The reference is a straight line of host operations: the scores `U1 · U2ᵀ`, their log-sigmoid spelt out
  (`−softplus(−s)`, softplus as `max(x, 0) + log1p(exp(−|x − 0|))` behind a self-comparison guard), the product with `A`,
  the sum of all entries, its negation, and the weighted sum of the absolute values of the factor matrices' entries.
  Listed here in order, the operations of the two helper functions at the place they are called; every execution
  terminates with the result buffer at `hostLoss` of the four arguments and the arguments unchanged.
-/
import proofs.«138033_j74663711473728_1_alg».proof.Proof.Gen.ReferenceIdeal
import Idealize.ShloMosaic.Lib.StableHlo.Run
import proofs.«138033_j74663711473728_1_alg».proof.Proof.Penalty

noncomputable section

open Idealize.ShloMosaic Idealize.ShloMosaic.TcCoe Idealize.SL.Sem

namespace Cert.ReferenceIdeal.HostRun

open Cert.ReferenceIdeal Cert.ReferenceIdeal.Gen Idealize.ShloMosaic.StableHlo

variable {F : FTy → Type} [FloatOps F]

/-- The reference's operations, in order. -/
abbrev ops : List (HloOp τ sig (Elt F)) :=
  [ unary main_arg2 main_v0 ((transpose S16x12288 [1, 0] · transposes_S12288x16_S16x12288_1_0) : (⟨S12288x16, .f32⟩ : BufTy).Contents (Elt F) → (⟨S16x12288, .f32⟩ : BufTy).Contents (Elt F)),
    binary main_arg1 main_v0 main_v1 ((fun l r => Host.dotGeneral dot_S12288x16_S16x12288_S12288x12288_1_0_0_1_n_n none l r) : (⟨S12288x16, .f32⟩ : BufTy).Contents (Elt F) → (⟨S16x12288, .f32⟩ : BufTy).Contents (Elt F) → (⟨S12288x12288, .f32⟩ : BufTy).Contents (Elt F)),
    TRef.unary (.of main_v1) main_call0.v0 Host.negf,
    TRef.nullary main_call0.call0.cst (constant S_ .f32 0x00000000#32),
    TRef.unary main_call0.call0.cst main_call0.call0.v0 (broadcastInDim S12288x12288 ![] bcast_S_S12288x12288),
    TRef.binary main_call0.v0 main_call0.call0.v0 main_call0.call0.v1 maximumf,
    TRef.unary main_call0.call0.cst main_call0.call0.v2 (broadcastInDim S12288x12288 ![] bcast_S_S12288x12288),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S12288x12288 ![] bcast_S_S12288x12288),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    binary main_arg0 main_v2 main_v3 (mulf : (⟨S12288x12288, .f32⟩ : BufTy).Contents (Elt F) → (⟨S12288x12288, .f32⟩ : BufTy).Contents (Elt F) → (⟨S12288x12288, .f32⟩ : BufTy).Contents (Elt F)),
    nullary main_cst (constant S_ .f32 0x00000000#32),
    binary main_v3 main_cst main_v4 ((fun x v => Host.reduceAdd x v reducesTo_S12288x12288_S_d0_1 h_S_) : (⟨S12288x12288, .f32⟩ : BufTy).Contents (Elt F) → (⟨S_, .f32⟩ : BufTy).Contents (Elt F) → (⟨S_, .f32⟩ : BufTy).Contents (Elt F)),
    unary main_v4 main_v5 (Host.negf : (⟨S_, .f32⟩ : BufTy).Contents (Elt F) → (⟨S_, .f32⟩ : BufTy).Contents (Elt F)),
    unary main_arg1 main_v6 (Host.absf : (⟨S12288x16, .f32⟩ : BufTy).Contents (Elt F) → (⟨S12288x16, .f32⟩ : BufTy).Contents (Elt F)),
    nullary main_cst_0 (constant S_ .f32 0x00000000#32),
    binary main_v6 main_cst_0 main_v7 ((fun x v => Host.reduceAdd x v reducesTo_S12288x16_S_d0_1 h_S_) : (⟨S12288x16, .f32⟩ : BufTy).Contents (Elt F) → (⟨S_, .f32⟩ : BufTy).Contents (Elt F) → (⟨S_, .f32⟩ : BufTy).Contents (Elt F)),
    unary main_arg2 main_v8 (Host.absf : (⟨S12288x16, .f32⟩ : BufTy).Contents (Elt F) → (⟨S12288x16, .f32⟩ : BufTy).Contents (Elt F)),
    nullary main_cst_1 (constant S_ .f32 0x00000000#32),
    binary main_v8 main_cst_1 main_v9 ((fun x v => Host.reduceAdd x v reducesTo_S12288x16_S_d0_1 h_S_) : (⟨S12288x16, .f32⟩ : BufTy).Contents (Elt F) → (⟨S_, .f32⟩ : BufTy).Contents (Elt F) → (⟨S_, .f32⟩ : BufTy).Contents (Elt F)),
    binary main_v7 main_v9 main_v10 (addf : (⟨S_, .f32⟩ : BufTy).Contents (Elt F) → (⟨S_, .f32⟩ : BufTy).Contents (Elt F) → (⟨S_, .f32⟩ : BufTy).Contents (Elt F)),
    binary main_arg3 main_v10 main_v11 (mulf : (⟨S_, .f32⟩ : BufTy).Contents (Elt F) → (⟨S_, .f32⟩ : BufTy).Contents (Elt F) → (⟨S_, .f32⟩ : BufTy).Contents (Elt F)),
    binary main_v5 main_v11 main_v12 (addf : (⟨S_, .f32⟩ : BufTy).Contents (Elt F) → (⟨S_, .f32⟩ : BufTy).Contents (Elt F) → (⟨S_, .f32⟩ : BufTy).Contents (Elt F)) ]

set_option maxRecDepth 2048 in
/-- @main is that straight line: the helper functions unfolded where they are called. -/
theorem main_eq (c : Dev nD) : main (F := F) c = seq ops := by
  simp only [main, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., nullary_bufs_sub .., unary_bufs_sub .., binary_bufs_sub ..,
    unary_bufs_sub .., binary_bufs_sub .., binary_bufs_sub .., unary_bufs_sub .., binary_bufs_sub .., unary_bufs_sub ..,
    unary_bufs_sub .., unary_bufs_sub .., unary_bufs_sub .., binary_bufs_sub .., ternary_bufs_sub .., unary_bufs_sub ..,
    binary_bufs_sub .., nullary_bufs_sub .., binary_bufs_sub .., unary_bufs_sub .., unary_bufs_sub .., nullary_bufs_sub ..,
    binary_bufs_sub .., unary_bufs_sub .., nullary_bufs_sub .., binary_bufs_sub .., binary_bufs_sub .., binary_bufs_sub ..,
    binary_bufs_sub ..⟩

/-- The scores' softplus as the host spells it, of the negated scores `x`. -/
def hostSoftplus (x : (⟨S12288x12288, .f32⟩ : BufTy).Contents (Elt F)) : (⟨S12288x12288, .f32⟩ : BufTy).Contents (Elt F) :=
  select (cmpf .une (subf x ((broadcastInDim S12288x12288 ![] bcast_S_S12288x12288) (constant S_ .f32 0x00000000#32))) (subf x ((broadcastInDim S12288x12288 ![] bcast_S_S12288x12288) (constant S_ .f32 0x00000000#32))))
    (addf x ((broadcastInDim S12288x12288 ![] bcast_S_S12288x12288) (constant S_ .f32 0x00000000#32)))
    (addf (maximumf x ((broadcastInDim S12288x12288 ![] bcast_S_S12288x12288) (constant S_ .f32 0x00000000#32)))
      (Host.log1p (Host.exp (Host.negf (Host.absf (subf x ((broadcastInDim S12288x12288 ![] bcast_S_S12288x12288) (constant S_ .f32 0x00000000#32))))))))

/-- The summand array: `A · (−softplus(−(U1 · U2ᵀ)))`. -/
def hostSummand (A : (⟨S12288x12288, .f32⟩ : BufTy).Contents (Elt F)) (U1 U2 : (⟨S12288x16, .f32⟩ : BufTy).Contents (Elt F)) : (⟨S12288x12288, .f32⟩ : BufTy).Contents (Elt F) :=
  mulf A (Host.negf (hostSoftplus (Host.negf
    (Host.dotGeneral dot_S12288x16_S16x12288_S12288x12288_1_0_0_1_n_n none U1 (transpose S16x12288 [1, 0] U2 transposes_S12288x16_S16x12288_1_0)))))

/-- The reference's result as one term of its arguments. -/
def hostLoss (A : (⟨S12288x12288, .f32⟩ : BufTy).Contents (Elt F)) (U1 U2 : (⟨S12288x16, .f32⟩ : BufTy).Contents (Elt F)) (lam : (⟨S_, .f32⟩ : BufTy).Contents (Elt F)) : (⟨S_, .f32⟩ : BufTy).Contents (Elt F) :=
  addf (Host.negf (Host.reduceAdd (hostSummand A U1 U2) (constant S_ .f32 0x00000000#32) reducesTo_S12288x12288_S_d0_1 h_S_))
    (Cert.Loss.penalty reducesTo_S12288x16_S_d0_1 h_S_ U1 U2 lam)

set_option maxRecDepth 8192 in
set_option maxHeartbeats 1000000 in
/-- Every execution of the reference terminates with its result at `hostLoss` of the arguments' launch contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = hostLoss (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v12).trans (by after_results; rfl),
      (h c main_arg0).trans (by after_results),
      (h c main_arg1).trans (by after_results),
      (h c main_arg2).trans (by after_results),
      (h c main_arg3).trans (by after_results)⟩)
    (run_seq scopedRefs_eq scopedSems_eq defs main (fun _ => ops) main_eq (fun _ => ops_sub) m ρ)

end Cert.ReferenceIdeal.HostRun
end
-- ==== Proof.RefValue.lean ====
/-
  The reference's result at the exact instance.

  Entry by entry the reference's summand array is `term (A-entry) (score)`: the host's `dot_general` of `U1` with the
  transposed `U2` is the inner product of two rows, and the spelt-out log-sigmoid is `−softplus(−s)`.  The host's sum
  from zero over both axes is the double sum over rows and columns, so the result is minus the sum over all pairs plus
  the regularisation term.
-/
import proofs.«138033_j74663711473728_1_alg».proof.Proof.RefRun
import proofs.«138033_j74663711473728_1_alg».proof.Proof.Loss
import proofs.«138033_j74663711473728_1_alg».proof.Proof.Penalty
import proofs.«138033_j74663711473728_1_alg».proof.Proof.LibPlainDot
import Idealize.ShloMosaic.Lib.ValueLayout
import Idealize.ShloMosaic.PureOps.Ideal.Laws

noncomputable section

open Idealize.ShloMosaic Idealize.ShloMosaic.TcCoe Idealize.SL.Sem

open scoped BigOperators
namespace Cert.ReferenceIdeal.RefValue
open Cert.ReferenceIdeal Cert.ReferenceIdeal.Gen Cert.ReferenceIdeal.HostRun Idealize.ShloMosaic.ValueIdx

/-- The reference's matrix product has plain dimension numbers: rows by columns. -/
theorem plain : dot_S12288x16_S16x12288_S12288x12288_1_0_0_1_n_n = DotDims.plain 12288 16 12288 := rfl

/-- The score array at (i, j): the inner product of row `i` of `U1` and row `j` of `U2`. -/
theorem scores_apply (U1 U2 : FVec Ideal S12288x16 .f32) (i j : Fin 12288) :
    Host.dotGeneral (F := Ideal) dot_S12288x16_S16x12288_S12288x12288_1_0_0_1_n_n none U1
        (transpose S16x12288 [1, 0] U2 transposes_S12288x16_S16x12288_1_0) (ix2 i j)
      = Cert.Loss.score U1 U2 i j := by
  refine (congrFun (Cert.Lib.PlainDot.dotGeneral_eq _ plain none .single U1 _) (ix2 i j)).trans ?_
  rw [Cert.Lib.PlainDot.rowsByCols_apply]
  unfold Cert.Loss.score
  refine Finset.sum_congr rfl fun k _ => ?_
  rw [transpose_ix2_apply]

/-- One entry of the summand array: the reference's spelling of `a · logσ(s)`, at the entry. -/
theorem entry_apply (A s : FVec Ideal S12288x12288 .f32) (j : S12288x12288.Idx) :
    mulf A (Host.negf (hostSoftplus (Host.negf s))) j = Cert.Loss.term (A j) (s j) := by
  unfold hostSoftplus
  simp only [mulf, subf, addf, maximumf, Host.absf, Host.negf, Host.exp, Host.log1p, select, cmpf, broadcastInDim, constant,
    Ideal.mulf_def, Ideal.subf_def, Ideal.addf_def, Ideal.maximumf_def, Ideal.hostNegf_def, Ideal.hostAbsf_def, Ideal.negf_def,
    Ideal.hostUnary_exp_def, Ideal.hostUnary_log1p_def, Ideal.cmpf_def, Ideal.absf_def]
  have hz : (FloatOps.ofBits (F := Ideal) .f32 0x00000000#32 : EReal) = 0 := Ideal.ofBits_zero_f32
  simp only [hz, Ideal.ofBits_zero_f32]
  exact Cert.Loss.term_of_negs (A j) (s j)

/-- The negated host sum of a 12288 × 12288 array from zero, plus a scalar. -/
theorem neg_sum_add (S : FVec Ideal S12288x12288 .f32) (P : FVec Ideal S_ .f32) (j : S_.Idx) :
    addf (Host.negf (Host.reduceAdd S (constant (F := Ideal) S_ .f32 0x00000000#32) reducesTo_S12288x12288_S_d0_1 h_S_)) P j
      = -(∑ i : Fin 12288, ∑ k : Fin 12288, S (ix2 i k)) + P j := by
  show -(Ideal.hostReduceAdd reducesTo_S12288x12288_S_d0_1 S (Ideal.ofBits .f32 0x00000000#32) j) + P j = _
  rw [Ideal.hostReduceAdd_total _ (fun b => b.elim0), Ideal.ofBits_zero_f32, zero_add, sum_idx2]

/-- The reference's result: minus the sum over all pairs, plus the regularisation term. -/
theorem hostLoss_eq (A : FVec Ideal S12288x12288 .f32) (U1 U2 : FVec Ideal S12288x16 .f32) (lam : FVec Ideal S_ .f32) (j : S_.Idx) :
    hostLoss (F := Ideal) A U1 U2 lam j
      = -(Cert.Loss.total A U1 U2) + Cert.Loss.penalty reducesTo_S12288x16_S_d0_1 h_S_ U1 U2 lam j := by
  unfold hostLoss
  refine (neg_sum_add (hostSummand (F := Ideal) A U1 U2) _ j).trans ?_
  refine congrArg (fun z : EReal => -z + Cert.Loss.penalty reducesTo_S12288x16_S_d0_1 h_S_ U1 U2 lam j) ?_
  unfold Cert.Loss.total
  refine Finset.sum_congr rfl fun i _ => Finset.sum_congr rfl fun k _ => ?_
  unfold hostSummand Cert.Loss.entry
  refine (entry_apply A _ (ix2 i k)).trans ?_
  exact congrArg (Cert.Loss.term (A (ix2 i k))) (scores_apply U1 U2 i k)

end Cert.ReferenceIdeal.RefValue
end
-- ==== Proof.lean ====
/-
  The five claims for the link-prediction loss kernel.

  Both programs compute, on the extended reals,

      −( Σ_{i,j} A[i,j] · logσ(⟨U1[i], U2[j]⟩) ) + lam · (Σ|U1| + Σ|U2|).

  The kernel walks the 48 column blocks of `A` (256 columns each), forms each block of scores as `U1` times the
  transposed block of `U2`, sums the block's entries into a one-entry running total carried from step to step, and
  writes the negated total after the last step; the host then adds the regularisation term.  The reference forms all
  scores at once and sums every entry in one reduction.  The two agree because a sum over all pairs is the sum over
  the column blocks of the blocks' sums — commutativity and associativity of addition on the extended reals, which
  need no finiteness — and because entry by entry both spell the same `term`: the kernel writes its negations as
  subtractions from zero, and both guard the softplus by a comparison of a number with itself, which never holds.
  The regularisation term is the same host computation of the same arguments on both sides and is never opened.
  The idealisation rewrote nothing, so the fourth claim is trivial; the frames of the two kernel programs are the
  generated ones, and the reference's frame is its run with the result dropped.
-/
import proofs.«138033_j74663711473728_1_alg».proof.Defs
import proofs.«138033_j74663711473728_1_alg».proof.Proof.Gen.Kernel.Frame
import proofs.«138033_j74663711473728_1_alg».proof.Proof.Gen.KernelIdeal.Frame
import proofs.«138033_j74663711473728_1_alg».proof.Proof.Gen.ReferenceIdeal
import proofs.«138033_j74663711473728_1_alg».proof.Proof.Gen.Pre_finite_inputs
import proofs.«138033_j74663711473728_1_alg».proof.Proof.KernelValue
import proofs.«138033_j74663711473728_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

/-- From memories that agree on the four arguments both programs end at minus the sum over all pairs plus the
    regularisation term. -/
theorem algebraic : Cert.algebraic_KernelIdeal_ReferenceIdeal := by
  intro m ρ m' ρ' _ hagree
  refine ⟨fun c => Cert.KernelIdeal.KernelValue.kernelLoss m c, Cert.KernelIdeal.KernelValue.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2.1, (hagree c).2.2.2]
  funext j
  rw [Cert.ReferenceIdeal.RefValue.hostLoss_eq]
  exact (Cert.KernelIdeal.KernelValue.kernelLoss_apply m c j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
